-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  main_v53

def fn_part2 {F : FTy → Type} [FloatOps F] (main_arg8 : FVec F S128x128 .f32) (main_arg9 : FVec F S128x128 .f32) (main_arg10 : FVec F S128 .f32) (main_arg11 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S1x128 : Shape := ⟨2, ![1, 128]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩

abbrev nBuf : Space → Nat
  | .hbm => 74
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S1x128, .f32⟩
  | .hbm, ⟨17, _⟩ => ⟨S100000x128, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S_, .f32⟩
  | .hbm, ⟨32, _⟩ => ⟨S1600000, .f32⟩
  | .hbm, ⟨33, _⟩ => ⟨S_, .f32⟩
  | .hbm, ⟨34, _⟩ => ⟨S100000, .f32⟩
  | .hbm, ⟨35, _⟩ => ⟨S1600000x1, .i32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S_, .f32⟩
  | .hbm, ⟨61, _⟩ => ⟨S1600000, .f32⟩
  | .hbm, ⟨62, _⟩ => ⟨S_, .f32⟩
  | .hbm, ⟨63, _⟩ => ⟨S100000, .f32⟩
  | .hbm, ⟨64, _⟩ => ⟨S1600000x1, .i32⟩
  | .hbm, ⟨65, _⟩ => ⟨S100000, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S1x128, .f32⟩
  | .local _ .vmem, ⟨27, _⟩ => ⟨S128x128, .f32⟩
  | .local _ .vmem, ⟨28, _⟩ => ⟨S5000x128, .f32⟩
  | .local _ .vmem, ⟨29, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S5000x128_S5000x128 : S5000x128.ShapeCasts S5000x128
  dot_S5000x128_S128x128_S5000x128_1_1_0_0_n_n_wf : DotDims.WF S5000x128 S128x128 S5000x128 [1] [1] [0] [0] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)

variable [Facts₀]

def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v26) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v47) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v49) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S128x128, .f32⟩
  | .hbm, ⟨17, _⟩ => ⟨S100000x128, .f32⟩
  | .hbm, ⟨18, _⟩ => ⟨S1x128, .f32⟩
  | .hbm, ⟨19, _⟩ => ⟨S100000x128, .f32⟩
  | .hbm, ⟨20, _⟩ => ⟨S100000x128, .f32⟩
  | .hbm, ⟨21, _⟩ => ⟨S_, .f32⟩
  | .hbm, ⟨22, _⟩ => ⟨S100000x128, .f32⟩
  | .hbm, ⟨23, _⟩ => ⟨S100000x128, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S_, .f32⟩
  | .hbm, ⟨38, _⟩ => ⟨S1600000, .f32⟩
  | .hbm, ⟨39, _⟩ => ⟨S_, .f32⟩
  | .hbm, ⟨40, _⟩ => ⟨S100000, .f32⟩
  | .hbm, ⟨41, _⟩ => ⟨S1600000x1, .i32⟩
  | .hbm, ⟨42, _⟩ => ⟨S100000, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S100000x1, .f32⟩
  | .hbm, ⟨47, _⟩ => ⟨S100000x128, .f32⟩
  | .hbm, ⟨48, _⟩ => ⟨S100000x128, .f32⟩
  | .hbm, ⟨49, _⟩ => ⟨S128x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S128x128, .f32⟩
  | .hbm, ⟨55, _⟩ => ⟨S100000x128, .f32⟩
  | .hbm, ⟨56, _⟩ => ⟨S100000x128, .f32⟩
  | .hbm, ⟨57, _⟩ => ⟨S_, .f32⟩
  | .hbm, ⟨58, _⟩ => ⟨S100000x128, .f32⟩
  | .hbm, ⟨59, _⟩ => ⟨S100000x128, .f32⟩
  | .hbm, ⟨60, _⟩ => ⟨S128x128, .f32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S_, .f32⟩
  | .hbm, ⟨82, _⟩ => ⟨S1600000, .f32⟩
  | .hbm, ⟨83, _⟩ => ⟨S_, .f32⟩
  | .hbm, ⟨84, _⟩ => ⟨S100000, .f32⟩
  | .hbm, ⟨85, _⟩ => ⟨S1600000x1, .i32⟩
  | .hbm, ⟨86, _⟩ => ⟨S100000, .f32⟩
  | .hbm, ⟨87, _⟩ => ⟨S_, .f32⟩
  | .hbm, ⟨88, _⟩ => ⟨S100000, .f32⟩
  | .hbm, ⟨89, _⟩ => ⟨S100000, .f32⟩
  | .hbm, ⟨90, _⟩ => ⟨S100000x1, .f32⟩
  | .hbm, ⟨91, _⟩ => ⟨S100000x128, .f32⟩
  | .hbm, ⟨92, _⟩ => ⟨S100000x128, .f32⟩
  | .hbm, ⟨93, _⟩ => ⟨S128x128, .f32⟩
  | .hbm, ⟨94, _⟩ => ⟨S100000x128, .f32⟩
  | .hbm, ⟨95, _⟩ => ⟨S1x128, .f32⟩
  | .hbm, ⟨96, _⟩ => ⟨S100000x128, .f32⟩
  | .hbm, ⟨97, _⟩ => ⟨S100000x128, .f32⟩
  | .hbm, ⟨98, _⟩ => ⟨S128x128, .f32⟩
  | .hbm, ⟨99, _⟩ => ⟨S100000x128, .f32⟩
  | .hbm, ⟨100, _⟩ => ⟨S100000x128, .f32⟩
  | .hbm, ⟨101, _⟩ => ⟨S_, .f32⟩
  | .hbm, ⟨102, _⟩ => ⟨S100000x128, .f32⟩
  | .hbm, ⟨103, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call0_cst : Ref sig .tc := ⟨.hbm, 21, rfl⟩
abbrev main_call0_v0 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call1_cst : Ref sig .tc := ⟨.hbm, 57, rfl⟩
abbrev main_call1_v0 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_call2_cst : Ref sig .tc := ⟨.hbm, 65, rfl⟩
abbrev main_call2_v0 : Ref sig .tc := ⟨.hbm, 66, rfl⟩
abbrev main_v43 : Ref sig .tc := ⟨.hbm, 67, rfl⟩
abbrev main_c_4 : Ref sig .tc := ⟨.hbm, 68, rfl⟩
abbrev main_v44 : Ref sig .tc := ⟨.hbm, 69, rfl⟩
abbrev main_v45 : Ref sig .tc := ⟨.hbm, 70, rfl⟩
abbrev main_c_5 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_6 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_7 : Ref sig .tc := ⟨.hbm, 81, rfl⟩
abbrev main_v54 : Ref sig .tc := ⟨.hbm, 82, rfl⟩
abbrev main_cst_8 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_call3_cst : Ref sig .tc := ⟨.hbm, 101, rfl⟩
abbrev main_call3_v0 : Ref sig .tc := ⟨.hbm, 102, rfl⟩
abbrev main_v71 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.Net.lean ====
/-
  The network both programs compute, written once as a function of the argument arrays.

  A dense layer is  relu (x · Wᵀ + b): entry (r, j) is  max (∑ₖ x[r,k] · W[j,k] + b[j]) 0.
  The neighbour mean of a node array h along the edge list  ei = (src, dst)  is, row by row,
  (Σ over edges e with dst e = r of h[src e]) / max (number of such edges) 1  — a gather, two scatter-adds and a
  quotient; nothing about it is opened here, it is carried as one function `meanAgg`.
  A combine layer is  relu ((mean · Wlᵀ + bl) + h · Wrᵀ).
  The network is  dense, combine (with the mean of the first layer's output), dense, combine.
  This file states these functions, shows that the reference's result term is the network of the arguments
  (by unfolding: the reference IS this composition), and reads a dense layer and a combine layer at an index.
-/
import proofs.«139575_j19731079758358_1_alg».proof.Proof.Gen.ReferenceIdeal.Read

noncomputable section

namespace Cert.Net

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- A node array: 100000 rows of 128 features. -/
abbrev Act (F : FTy → Type) [FloatOps F] : Type := (⟨S100000x128, .f32⟩ : BufTy).Contents (Elt F)
/-- A weight matrix, 128 × 128, stored output-feature major (row j holds the weights of output feature j). -/
abbrev Mat (F : FTy → Type) [FloatOps F] : Type := (⟨S128x128, .f32⟩ : BufTy).Contents (Elt F)
/-- A bias, one entry per output feature. -/
abbrev Bias (F : FTy → Type) [FloatOps F] : Type := (⟨S128, .f32⟩ : BufTy).Contents (Elt F)
/-- The edge list: row 0 the source node of each edge, row 1 its destination. -/
abbrev Edges (F : FTy → Type) [FloatOps F] : Type := (⟨S2x1600000, .i32⟩ : BufTy).Contents (Elt F)

/-- relu (x · Wᵀ + b). -/
def dense (x : Act F) (W : Mat F) (b : Bias F) : Act F := val_main_v9 (F := F) x W b

/-- relu ((mean · Wlᵀ + bl) + h · Wrᵀ). -/
def combine (mean h : Act F) (Wl : Mat F) (bl : Bias F) (Wr : Mat F) : Act F :=
  maximumf (addf (addf (val_main_v5 (F := F) mean Wl) (val_main_v7 (F := F) bl)) (val_main_v5 (F := F) h Wr)) (val_main_call0_v0 (F := F))

/-- The source node of each edge. -/
def srcOf (ei : Edges F) : (⟨S1600000, .i32⟩ : BufTy).Contents (Elt F) :=
  shapeCast _ (extractStridedSlice S1x1600000 ![0, 0] ei slices_S2x1600000_S1x1600000_0_0) shapeCasts_S1x1600000_S1600000
/-- The destination node of each edge. -/
def dstOf (ei : Edges F) : (⟨S1600000, .i32⟩ : BufTy).Contents (Elt F) :=
  shapeCast _ (extractStridedSlice S1x1600000 ![1, 0] ei slices_S2x1600000_S1x1600000_1_0) shapeCasts_S1x1600000_S1600000

/-- The mean of the rows of `h` over each node's incoming edges: the rows `h[src e]` gathered (a negative source
    counted from the end), added into row `dst e` of a zero array, and divided by the number of incoming edges, at
    least one. -/
def meanAgg (h : Act F) (ei : Edges F) : Act F :=
  Host.divf (Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (dstOf ei)) (Host.gather gather_S100000x128_S1600000x1_S1600000x128_1_0_n_n_0_1_1128 h (broadcastInDim S1600000x1 ![0] bcast_S1600000_S1600000x1_0 (select (cmpi .slt (srcOf ei) (broadcastInDim S1600000 ![] bcast_S_S1600000 (constantI S_ 32 0#32))) (addi (srcOf ei) (broadcastInDim S1600000 ![] bcast_S_S1600000 (constantI S_ 32 100000#32))) (srcOf ei))))) (broadcastInDim S100000x128 ![0, 1] bcast_S100000x1_S100000x128_0_1 (broadcastInDim S100000x1 ![0] bcast_S100000_S100000x1_0 (maximumf (Host.scatterAdd scatter_S100000_S1600000x1_S1600000_n_0_0_1 (broadcastInDim S100000 ![] bcast_S_S100000 (constant S_ .f32 0x00000000#32)) (broadcastInDim S1600000x1 ![0] bcast_S1600000_S1600000x1_0 (dstOf ei)) (broadcastInDim S1600000 ![] bcast_S_S1600000 (constant S_ .f32 0x3F800000#32))) (broadcastInDim S100000 ![] bcast_S_S100000 (constant S_ .f32 0x3F800000#32)))))

/-- The whole network: two (dense, combine) stages over one edge list. -/
def net (x : Act F) (ei : Edges F) (W1 : Mat F) (b1 : Bias F) (W2 : Mat F) (b2 : Bias F)
    (Wl1 : Mat F) (bl1 : Bias F) (Wr1 : Mat F) (Wl2 : Mat F) (bl2 : Bias F) (Wr2 : Mat F) : Act F :=
  combine (meanAgg (dense (combine (meanAgg (dense x W1 b1) ei) (dense x W1 b1) Wl1 bl1 Wr1) W2 b2) ei)
    (dense (combine (meanAgg (dense x W1 b1) ei) (dense x W1 b1) Wl1 bl1 Wr1) W2 b2) Wl2 bl2 Wr2

set_option maxRecDepth 8192 in
/-- The reference's result is the network of its arguments: its operations, in order, are this composition. -/
theorem ref_eq (m : (ℓ : Loc nD τ sig) → Buf (Elt F) ℓ) (c : Dev nD) :
    Value.res_main_v71 m c = net (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg9))
      (m ((c.tc : Thread nD τ).loc main_arg10)) (m ((c.tc : Thread nD τ).loc main_arg11)) := by
  unfold Value.res_main_v71 net dense combine meanAgg srcOf dstOf val_main_v9 val_main_v8 val_main_v7 val_main_v6 val_main_v5 val_main_v4 val_main_call0_v0 val_main_call0_cst
  rfl

/-- A dense layer at an index: the row of `x` against the row of `W` the index's column names, plus that column's
    bias, clamped below at zero. -/
theorem dense_apply (x : Act Ideal) (W : Mat Ideal) (b : Bias Ideal) (i : S100000x128.Idx) :
    dense (F := Ideal) x W b i
      = max ((∑ k : Fin 128, x (lidx_main_v5 i k) * W (idx_main_v4 (ridx_main_v5 i k))) + b (idx_main_v6 (idx_main_v7 i)))
          (Ideal.ofBits .f32 0x00000000#32) := by
  unfold dense
  rw [val_main_v9_apply, val_main_v8_apply, val_main_v5_apply, val_main_v7_apply, val_main_v6_apply,
    val_main_call0_v0_apply, val_main_call0_cst_apply]
  simp only [val_main_v4_apply]
  rfl

/-- A combine layer at an index: two such row products, the first with its bias, added in that grouping and clamped
    below at zero. -/
theorem combine_apply (mean h : Act Ideal) (Wl : Mat Ideal) (bl : Bias Ideal) (Wr : Mat Ideal) (i : S100000x128.Idx) :
    combine (F := Ideal) mean h Wl bl Wr i
      = max (((∑ k : Fin 128, mean (lidx_main_v5 i k) * Wl (idx_main_v4 (ridx_main_v5 i k))) + bl (idx_main_v6 (idx_main_v7 i)))
            + ∑ k : Fin 128, h (lidx_main_v5 i k) * Wr (idx_main_v4 (ridx_main_v5 i k)))
          (Ideal.ofBits .f32 0x00000000#32) := by
  unfold combine
  show FloatOps.maximumf (F := Ideal) (φ := .f32) (FloatOps.addf (F := Ideal) (φ := .f32) (FloatOps.addf (F := Ideal) (φ := .f32) (val_main_v5 (F := Ideal) mean Wl i) (val_main_v7 (F := Ideal) bl i))
    (val_main_v5 (F := Ideal) h Wr i)) (val_main_call0_v0 (F := Ideal) i) = _
  rw [val_main_v5_apply, val_main_v5_apply, val_main_v7_apply, val_main_v6_apply,
    val_main_call0_v0_apply, val_main_call0_cst_apply]
  simp only [val_main_v4_apply]
  rfl

end Cert.Net

end
-- ==== Proof.Named.lean ====
/-
  The idealized kernel's run with its result NAMED.

  @main is eight segments: four stretches of host operations, each followed by one of the four regions. The library's
  theorem for such a program gives, from any memory with zero counters, that every weakly fair execution terminates,
  faults nowhere, and ends with every unscoped buffer at the contents the last boundary names (the fold `W8` of the
  segments' effects over the launch memory). Read at the result's buffer this says what the program returns; read at an
  argument's buffer it says the argument is unchanged.
-/
import proofs.«139575_j19731079758358_1_alg».proof.Proof.GenP.KernelIdeal.Frame

set_option maxRecDepth 16384

noncomputable section

namespace Cert.KernelIdeal.Named

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, with the result buffer at the last boundary's
    contents and every argument as launched. -/
theorem run : θ_run defs (onTc (τ := τ) (main (F := F))) ⟨m, fun _ => 0, ρ⟩ (fun r => ∀ c : Dev nD,
      r.2.mem ((c.tc : Thread nD τ).loc main_v49) = W8 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v49 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c)⟩)

end Cert.KernelIdeal.Named

end
-- ==== Proof.Body.lean ====
/-
  The four kernel bodies, read at an index of their block, at the ideal values.

  Every body loads a block of 5000 rows (two such blocks in a combine body), one or two 128 × 128 weight matrices and a
  1 × 128 bias row, and stores ONE value: the product of the row block with the TRANSPOSED weight matrix (the matmul
  contracts axis 1 of both operands) into a zero accumulator, plus the bias row repeated down the rows, (in a combine
  body: plus the second product,) clamped below at zero. The format changes to bfloat16 before each product are the
  identity at the ideal values. So entry (r, j) of the stored block is
      max (∑ₖ a[r,k] · w[j,k] + b[0,j]) 0                         (a dense body),
      max ((∑ₖ a[r,k] · wl[j,k] + b[0,j]) + ∑ₖ h[r,k] · wr[j,k]) 0  (a combine body).
-/
import proofs.«139575_j19731079758358_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.TcCoe Idealize.SL.Sem

/-- Entry `k` of the block row that the block index `j` lies in. -/
abbrev rowAt (j : S5000x128.Idx) (k : Fin 128) : S5000x128.Idx := fun a => match a with
  | ⟨0, _⟩ => ⟨(j 0).val, (j 0).isLt⟩
  | ⟨1, _⟩ => ⟨k.val, k.isLt⟩
/-- Entry `k` of the weight row that the column of `j` names. -/
abbrev wAt (j : S5000x128.Idx) (k : Fin 128) : S128x128.Idx := fun a => match a with
  | ⟨0, _⟩ => ⟨(j 1).val, (j 1).isLt⟩
  | ⟨1, _⟩ => ⟨k.val, k.isLt⟩
/-- The bias row's entry at the column of `j`. -/
abbrev bAt (j : S5000x128.Idx) : S1x128.Idx := fun a => match a with
  | ⟨0, _⟩ => ⟨0, Nat.one_pos⟩
  | ⟨1, _⟩ => ⟨(j 1).val, (j 1).isLt⟩

theorem lhs0 (j : S5000x128.Idx) (q : dot_S5000x128_S128x128_S5000x128_1_1_0_0_n_n.contr.Idx) : (dot_S5000x128_S128x128_S5000x128_1_1_0_0_n_n.lhsIdx j q 0).val = (j 0).val := by
  unfold DotDims.lhsIdx
  rw [dif_neg (show ¬(0 : Fin S5000x128.rank) ∈ dot_S5000x128_S128x128_S5000x128_1_1_0_0_n_n.lhsBatch by decide), dif_pos (show (0 : Fin S5000x128.rank) ∈ dot_S5000x128_S128x128_S5000x128_1_1_0_0_n_n.lhsNonContracting by decide)]
  rfl
theorem lhs1 (j : S5000x128.Idx) (q : dot_S5000x128_S128x128_S5000x128_1_1_0_0_n_n.contr.Idx) : (dot_S5000x128_S128x128_S5000x128_1_1_0_0_n_n.lhsIdx j q 1).val = (q ⟨0, by decide⟩).val :=
  dot_S5000x128_S128x128_S5000x128_1_1_0_0_n_n.lhsIdx_val_of_single rfl j q
theorem rhs0 (j : S5000x128.Idx) (q : dot_S5000x128_S128x128_S5000x128_1_1_0_0_n_n.contr.Idx) : (dot_S5000x128_S128x128_S5000x128_1_1_0_0_n_n.rhsIdx j q 0).val = (j 1).val := by
  unfold DotDims.rhsIdx
  rw [dif_neg (show ¬(0 : Fin S128x128.rank) ∈ dot_S5000x128_S128x128_S5000x128_1_1_0_0_n_n.rhsBatch by decide), dif_pos (show (0 : Fin S128x128.rank) ∈ dot_S5000x128_S128x128_S5000x128_1_1_0_0_n_n.rhsNonContracting by decide)]
  rfl
theorem rhs1 (j : S5000x128.Idx) (q : dot_S5000x128_S128x128_S5000x128_1_1_0_0_n_n.contr.Idx) : (dot_S5000x128_S128x128_S5000x128_1_1_0_0_n_n.rhsIdx j q 1).val = (q ⟨0, by decide⟩).val :=
  dot_S5000x128_S128x128_S5000x128_1_1_0_0_n_n.rhsIdx_val_of_single rfl j q

/-- The body's product into the zero accumulator, at an index: row `j 0` of the block against row `j 1` of the weights. -/
theorem mm_apply {φ₁ φ₂ : FTy} (a : FVec Ideal S5000x128 φ₁) (w : FVec Ideal S128x128 φ₂) (j : S5000x128.Idx) :
    FloatOps.matmul dot_S5000x128_S128x128_S5000x128_1_1_0_0_n_n none a w (constant S5000x128 .f32 0x00000000#32) j
      = ∑ k : Fin 128, a (rowAt j k) * w (wAt j k) := by
  rw [Ideal.matmul_constant_zero_apply, ← Equiv.sum_comp (ValueIdx.contrEquiv1 dot_S5000x128_S128x128_S5000x128_1_1_0_0_n_n 128 rfl rfl).symm]
  refine Finset.sum_congr rfl fun k _ => ?_
  have hk := ValueIdx.contrEquiv1_symm_val dot_S5000x128_S128x128_S5000x128_1_1_0_0_n_n 128 rfl rfl k
  have el : dot_S5000x128_S128x128_S5000x128_1_1_0_0_n_n.lhsIdx j ((ValueIdx.contrEquiv1 dot_S5000x128_S128x128_S5000x128_1_1_0_0_n_n 128 rfl rfl).symm k) = rowAt j k := funext fun a => Fin.ext (by
    match a with
    | ⟨0, _⟩ => exact lhs0 _ _
    | ⟨1, _⟩ => exact (lhs1 _ _).trans hk)
  have er : dot_S5000x128_S128x128_S5000x128_1_1_0_0_n_n.rhsIdx j ((ValueIdx.contrEquiv1 dot_S5000x128_S128x128_S5000x128_1_1_0_0_n_n 128 rfl rfl).symm k) = wAt j k := funext fun a => Fin.ext (by
    match a with
    | ⟨0, _⟩ => exact rhs0 _ _
    | ⟨1, _⟩ => exact (rhs1 _ _).trans hk)
  rw [el, er]

/-- The bias row repeated down the block's rows, at an index. -/
theorem bias_apply (b : Vec Ideal S1x128 .f32) (j : S5000x128.Idx) :
    broadcastTo S5000x128 (shapeCast S1x128 b shapeCasts_S1x128_S1x128) broadcasts_S1x128_S5000x128 j = b (bAt j) := by
  rw [shapeCast_self]
  exact broadcastTo_apply b broadcasts_S1x128_S5000x128 j (bAt j) (fun a => match a with
    | ⟨0, _⟩ => by show 0 = if (1 : Nat) = 1 then 0 else (j 0).val; rw [if_pos rfl]
    | ⟨1, _⟩ => by show (j 1).val = if (128 : Nat) = 1 then 0 else (j 1).val; rw [if_neg (by decide)])

/-- The first dense body's stored value at an index. -/
theorem pay0_apply (v0 : Vec Ideal S5000x128 .f32) (v2 : Vec Ideal S128x128 .f32) (v5 : Vec Ideal S1x128 .f32) (j : S5000x128.Idx) :
    k0_pay1 (F := Ideal) v0 v2 v5 j
      = max ((∑ k : Fin 128, v0 (rowAt j k) * v2 (wAt j k)) + v5 (bAt j)) (Ideal.ofBits .f32 0x00000000#32) := by
  unfold k0_pay1
  show max (FloatOps.matmul (F := Ideal) dot_S5000x128_S128x128_S5000x128_1_1_0_0_n_n none (truncf (F := Ideal) .bf16 v0 bitsLt_bf16_f32) (truncf (F := Ideal) .bf16 v2 bitsLt_bf16_f32) (constant (F := Ideal) S5000x128 .f32 0x00000000#32) j
    + broadcastTo S5000x128 (shapeCast S1x128 v5 shapeCasts_S1x128_S1x128) broadcasts_S1x128_S5000x128 j) _ = _
  rw [mm_apply, bias_apply]
  rfl

/-- The second dense body's stored value at an index. -/
theorem pay2_apply (v0 : Vec Ideal S5000x128 .f32) (v3 : Vec Ideal S128x128 .f32) (v6 : Vec Ideal S1x128 .f32) (j : S5000x128.Idx) :
    k2_pay1 (F := Ideal) v0 v3 v6 j
      = max ((∑ k : Fin 128, v0 (rowAt j k) * v3 (wAt j k)) + v6 (bAt j)) (Ideal.ofBits .f32 0x00000000#32) := by
  unfold k2_pay1
  show max (FloatOps.matmul (F := Ideal) dot_S5000x128_S128x128_S5000x128_1_1_0_0_n_n none (truncf (F := Ideal) .bf16 (shapeCast S5000x128 v0 shapeCasts_S5000x128_S5000x128) bitsLt_bf16_f32) (truncf (F := Ideal) .bf16 v3 bitsLt_bf16_f32) (constant (F := Ideal) S5000x128 .f32 0x00000000#32) j
    + broadcastTo S5000x128 (shapeCast S1x128 v6 shapeCasts_S1x128_S1x128) broadcasts_S1x128_S5000x128 j) _ = _
  rw [mm_apply, bias_apply, shapeCast_self]
  rfl

/-- The first combine body's stored value at an index. -/
theorem pay1_apply (v0 v3 : Vec Ideal S5000x128 .f32) (v6 v8 : Vec Ideal S128x128 .f32) (v12 : Vec Ideal S1x128 .f32) (j : S5000x128.Idx) :
    k1_pay1 (F := Ideal) v0 v3 v6 v8 v12 j
      = max (((∑ k : Fin 128, v0 (rowAt j k) * v6 (wAt j k)) + v12 (bAt j)) + ∑ k : Fin 128, v3 (rowAt j k) * v8 (wAt j k))
          (Ideal.ofBits .f32 0x00000000#32) := by
  unfold k1_pay1
  show max ((FloatOps.matmul (F := Ideal) dot_S5000x128_S128x128_S5000x128_1_1_0_0_n_n none (truncf (F := Ideal) .bf16 (shapeCast S5000x128 v0 shapeCasts_S5000x128_S5000x128) bitsLt_bf16_f32) (truncf (F := Ideal) .bf16 v6 bitsLt_bf16_f32) (constant (F := Ideal) S5000x128 .f32 0x00000000#32) j
    + broadcastTo S5000x128 (shapeCast S1x128 v12 shapeCasts_S1x128_S1x128) broadcasts_S1x128_S5000x128 j)
    + FloatOps.matmul (F := Ideal) dot_S5000x128_S128x128_S5000x128_1_1_0_0_n_n none (truncf (F := Ideal) .bf16 (shapeCast S5000x128 v3 shapeCasts_S5000x128_S5000x128) bitsLt_bf16_f32) (truncf (F := Ideal) .bf16 v8 bitsLt_bf16_f32) (constant (F := Ideal) S5000x128 .f32 0x00000000#32) j) _ = _
  rw [mm_apply, mm_apply, bias_apply, shapeCast_self, shapeCast_self]
  rfl

/-- The second combine body's stored value at an index. -/
theorem pay3_apply (v0 v3 : Vec Ideal S5000x128 .f32) (v6 v8 : Vec Ideal S128x128 .f32) (v12 : Vec Ideal S1x128 .f32) (j : S5000x128.Idx) :
    k3_pay1 (F := Ideal) v0 v3 v6 v8 v12 j
      = max (((∑ k : Fin 128, v0 (rowAt j k) * v6 (wAt j k)) + v12 (bAt j)) + ∑ k : Fin 128, v3 (rowAt j k) * v8 (wAt j k))
          (Ideal.ofBits .f32 0x00000000#32) := by
  unfold k3_pay1
  show max ((FloatOps.matmul (F := Ideal) dot_S5000x128_S128x128_S5000x128_1_1_0_0_n_n none (truncf (F := Ideal) .bf16 (shapeCast S5000x128 v0 shapeCasts_S5000x128_S5000x128) bitsLt_bf16_f32) (truncf (F := Ideal) .bf16 v6 bitsLt_bf16_f32) (constant (F := Ideal) S5000x128 .f32 0x00000000#32) j
    + broadcastTo S5000x128 (shapeCast S1x128 v12 shapeCasts_S1x128_S1x128) broadcasts_S1x128_S5000x128 j)
    + FloatOps.matmul (F := Ideal) dot_S5000x128_S128x128_S5000x128_1_1_0_0_n_n none (truncf (F := Ideal) .bf16 (shapeCast S5000x128 v3 shapeCasts_S5000x128_S5000x128) bitsLt_bf16_f32) (truncf (F := Ideal) .bf16 v8 bitsLt_bf16_f32) (constant (F := Ideal) S5000x128 .f32 0x00000000#32) j) _ = _
  rw [mm_apply, mm_apply, bias_apply, shapeCast_self, shapeCast_self]
  rfl

end Cert.KernelIdeal.Body

end
-- ==== Proof.Point.lean ====
/-
  One entry of a stored block against one entry of a layer of the network.

  If a block's loaded values are the layer's inputs read where the entry's array index says — row `i 0` of the node
  array, row `i 1` of each weight matrix, entry `i 1` of the bias —, then the body's stored value at the block index is
  the layer at the array index `i`: both are the same maximum of the same sums, term by term.
-/
import proofs.«139575_j19731079758358_1_alg».proof.Proof.Body
import proofs.«139575_j19731079758358_1_alg».proof.Proof.Net

noncomputable section

namespace Cert.KernelIdeal.Point

open Cert.KernelIdeal Cert.KernelIdeal.Gen Idealize.ShloMosaic Idealize.ShloMosaic.TcCoe Idealize.SL.Sem
open Cert.ReferenceIdeal.Read (lidx_main_v5 ridx_main_v5 idx_main_v4 idx_main_v6 idx_main_v7)

/-- The first dense body at a block index is the dense layer at the array index it is stored to. -/
theorem dense0 (x0 : Vec Ideal S5000x128 .f32) (x1 : Vec Ideal S128x128 .f32) (x2 : Vec Ideal S1x128 .f32)
    (X : Net.Act Ideal) (W : Net.Mat Ideal) (b : Net.Bias Ideal) (y : S5000x128.Idx) (i : Cert.ReferenceIdeal.S100000x128.Idx)
    (h0 : ∀ k : Fin 128, x0 (Body.rowAt y k) = X (lidx_main_v5 i k))
    (h1 : ∀ k : Fin 128, x1 (Body.wAt y k) = W (idx_main_v4 (ridx_main_v5 i k)))
    (h2 : x2 (Body.bAt y) = b (idx_main_v6 (idx_main_v7 i))) :
    k0_pay1 (F := Ideal) x0 x1 x2 y = Net.dense X W b i := by
  rw [Body.pay0_apply, Net.dense_apply, h2]
  exact congrArg (fun s => max (s + _) _) (Finset.sum_congr rfl fun k _ => by rw [h0 k, h1 k])

/-- The second dense body, likewise. -/
theorem dense2 (x0 : Vec Ideal S5000x128 .f32) (x1 : Vec Ideal S128x128 .f32) (x2 : Vec Ideal S1x128 .f32)
    (X : Net.Act Ideal) (W : Net.Mat Ideal) (b : Net.Bias Ideal) (y : S5000x128.Idx) (i : Cert.ReferenceIdeal.S100000x128.Idx)
    (h0 : ∀ k : Fin 128, x0 (Body.rowAt y k) = X (lidx_main_v5 i k))
    (h1 : ∀ k : Fin 128, x1 (Body.wAt y k) = W (idx_main_v4 (ridx_main_v5 i k)))
    (h2 : x2 (Body.bAt y) = b (idx_main_v6 (idx_main_v7 i))) :
    k2_pay1 (F := Ideal) x0 x1 x2 y = Net.dense X W b i := by
  rw [Body.pay2_apply, Net.dense_apply, h2]
  exact congrArg (fun s => max (s + _) _) (Finset.sum_congr rfl fun k _ => by rw [h0 k, h1 k])

/-- The first combine body at a block index is the combine layer at the array index it is stored to. -/
theorem combine1 (x0 x1 : Vec Ideal S5000x128 .f32) (x2 x4 : Vec Ideal S128x128 .f32) (x3 : Vec Ideal S1x128 .f32)
    (M H : Net.Act Ideal) (Wl : Net.Mat Ideal) (bl : Net.Bias Ideal) (Wr : Net.Mat Ideal) (y : S5000x128.Idx)
    (i : Cert.ReferenceIdeal.S100000x128.Idx)
    (h0 : ∀ k : Fin 128, x0 (Body.rowAt y k) = M (lidx_main_v5 i k))
    (h1 : ∀ k : Fin 128, x1 (Body.rowAt y k) = H (lidx_main_v5 i k))
    (h2 : ∀ k : Fin 128, x2 (Body.wAt y k) = Wl (idx_main_v4 (ridx_main_v5 i k)))
    (h3 : x3 (Body.bAt y) = bl (idx_main_v6 (idx_main_v7 i)))
    (h4 : ∀ k : Fin 128, x4 (Body.wAt y k) = Wr (idx_main_v4 (ridx_main_v5 i k))) :
    k1_pay1 (F := Ideal) x0 x1 x2 x4 x3 y = Net.combine M H Wl bl Wr i := by
  rw [Body.pay1_apply, Net.combine_apply, h3,
    Finset.sum_congr rfl (fun k _ => by rw [h0 k, h2 k] : ∀ k ∈ Finset.univ, x0 (Body.rowAt y k) * x2 (Body.wAt y k) = M (lidx_main_v5 i k) * Wl (idx_main_v4 (ridx_main_v5 i k))),
    Finset.sum_congr rfl (fun k _ => by rw [h1 k, h4 k] : ∀ k ∈ Finset.univ, x1 (Body.rowAt y k) * x4 (Body.wAt y k) = H (lidx_main_v5 i k) * Wr (idx_main_v4 (ridx_main_v5 i k)))]

/-- The second combine body, likewise. -/
theorem combine3 (x0 x1 : Vec Ideal S5000x128 .f32) (x2 x4 : Vec Ideal S128x128 .f32) (x3 : Vec Ideal S1x128 .f32)
    (M H : Net.Act Ideal) (Wl : Net.Mat Ideal) (bl : Net.Bias Ideal) (Wr : Net.Mat Ideal) (y : S5000x128.Idx)
    (i : Cert.ReferenceIdeal.S100000x128.Idx)
    (h0 : ∀ k : Fin 128, x0 (Body.rowAt y k) = M (lidx_main_v5 i k))
    (h1 : ∀ k : Fin 128, x1 (Body.rowAt y k) = H (lidx_main_v5 i k))
    (h2 : ∀ k : Fin 128, x2 (Body.wAt y k) = Wl (idx_main_v4 (ridx_main_v5 i k)))
    (h3 : x3 (Body.bAt y) = bl (idx_main_v6 (idx_main_v7 i)))
    (h4 : ∀ k : Fin 128, x4 (Body.wAt y k) = Wr (idx_main_v4 (ridx_main_v5 i k))) :
    k3_pay1 (F := Ideal) x0 x1 x2 x4 x3 y = Net.combine M H Wl bl Wr i := by
  rw [Body.pay3_apply, Net.combine_apply, h3,
    Finset.sum_congr rfl (fun k _ => by rw [h0 k, h2 k] : ∀ k ∈ Finset.univ, x0 (Body.rowAt y k) * x2 (Body.wAt y k) = M (lidx_main_v5 i k) * Wl (idx_main_v4 (ridx_main_v5 i k))),
    Finset.sum_congr rfl (fun k _ => by rw [h1 k, h4 k] : ∀ k ∈ Finset.univ, x1 (Body.rowAt y k) * x4 (Body.wAt y k) = H (lidx_main_v5 i k) * Wr (idx_main_v4 (ridx_main_v5 i k)))]

end Cert.KernelIdeal.Point

end
-- ==== Proof.R0.lean ====
/-
  Region 0 (a dense layer) as one array: whatever the buffers hold when the region is entered, its output array ends
  holding the dense layer of the three input arrays — the node array, the weight matrix, and the bias whose 1 × 128
  reshape the third window stages.

  Point t of the 20-point grid loads rows 5000·t … 5000·t + 4999 of the node array, the whole weight matrix and the whole
  bias row, and writes back the same rows of the output; so entry (p, q) of the block it writes is the layer's entry
  (5000·t + p, q), and the twenty blocks tile the 100000 rows.
-/
import proofs.«139575_j19731079758358_1_alg».proof.Proof.GenP.KernelIdeal.Frame
import proofs.«139575_j19731079758358_1_alg».proof.Proof.Point

set_option maxRecDepth 16384

noncomputable section

namespace Cert.KernelIdeal.R0

open Cert.KernelIdeal Cert.KernelIdeal.Gen Cert.KernelIdeal.GenP Idealize.ShloMosaic Idealize.ShloMosaic.TcCoe Idealize.SL.Sem
open Idealize.ShloMosaic.Pipeline (Dat)
open Cert.ReferenceIdeal.Read (lidx_main_v5 ridx_main_v5 idx_main_v4 idx_main_v6 idx_main_v7)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the node block and the output block move together down the rows, and the
    weight matrix and the bias row are always their one block. -/
theorem maps : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 19 :=
  (by decide +kernel : ∀ t : Fin grid0.N, _)

/-- Every block of rows is some point's. -/
theorem onto : ∀ q : Fin 20, ∃ t : Fin cfg0.N, win0_3.index t = ![q.val, 0] :=
  (by decide +kernel : ∀ q : Fin 20, ∃ t : Fin grid0.N, win0_3.index t = ![q.val, 0])

/-- What point `t` writes back is block `t` of the dense layer of the arrays the region finds. -/
theorem flushed_eq (c : Dev nD) (t : Fin cfg0.N) (b : Net.Bias Ideal)
    (hb : ∀ y : S1x128.Idx, V c main_v4 y = b (idx_main_v6 y)) :
    (dat0 V c).flushed 3 t
      = ((cfg0.win 3).blk t).view.read (Elt Ideal) (Net.dense (V c main_arg0) (V c main_arg2) b) := by
  show (cfg0.win 3).cut (grid0.coords t) ((dat0 V c).after 3 t) = _
  rw [after0_3]
  unfold out0_3
  rw [View.canon_unit_zero origin]
  simp only [View.ld_unit_zero (S := S5000x128) origin, View.ld_unit_zero (S := S128x128) origin, View.ld_unit_zero (S := S1x128) origin]
  obtain ⟨e0, e1, e2, e3, e4, e5, e6, e7⟩ := maps t
  funext y
  refine Point.dense0 (iblk0 V c 0 t) (iblk0 V c 1 t) (iblk0 V c 2 t) (V c main_arg0) (V c main_arg2) b y
    (((cfg0.win 3).blk t).view.emb y) ?_ ?_ ?_
  · intro k
    show V c main_arg0 (((cfg0.win 0).blk t).view.emb (Body.rowAt y k)) = V c main_arg0 (lidx_main_v5 (((cfg0.win 3).blk t).view.emb y) k)
    refine congrArg _ (funext fun a => Fin.ext ?_)
    match a with
    | ⟨0, _⟩ => show win0_0.index t (0 : Fin 2) * 5000 + 1 * (y 0).val = win0_3.index t (0 : Fin 2) * 5000 + 1 * (y 0).val; omega
    | ⟨1, _⟩ => show win0_0.index t (1 : Fin 2) * 128 + 1 * k.val = k.val; omega
  · intro k
    show V c main_arg2 (((cfg0.win 1).blk t).view.emb (Body.wAt y k)) = V c main_arg2 (idx_main_v4 (ridx_main_v5 (((cfg0.win 3).blk t).view.emb y) k))
    refine congrArg _ (funext fun a => Fin.ext ?_)
    match a with
    | ⟨0, _⟩ => show win0_1.index t (0 : Fin 2) * 128 + 1 * (y 1).val = win0_3.index t (1 : Fin 2) * 128 + 1 * (y 1).val; omega
    | ⟨1, _⟩ => show win0_1.index t (1 : Fin 2) * 128 + 1 * k.val = k.val; omega
  · show V c main_v4 (((cfg0.win 2).blk t).view.emb (Body.bAt y)) = b (idx_main_v6 (idx_main_v7 (((cfg0.win 3).blk t).view.emb y)))
    rw [hb]
    refine congrArg _ (funext fun a => Fin.ext ?_)
    match a with
    | ⟨0, _⟩ => show win0_2.index t (1 : Fin 2) * 128 + 1 * (y 1).val = win0_3.index t (1 : Fin 2) * 128 + 1 * (y 1).val; omega

/-- An index of the output array is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v5).slice (win0_3.rect t)).set ↔ _
  rw [View.set_slice_whole, Rect.mem_set_unit]
  exact Iff.rfl

/-- Row `r` of the output lies in the block of point `r / 5000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The region's output array after its last point: the dense layer of what the region found in its input arrays. -/
theorem final (c : Dev nD) (b : Net.Bias Ideal) (hb : ∀ y : S1x128.Idx, V c main_v4 y = b (idx_main_v6 y)) :
    (dat0 V c).arrAt 3 cfg0.N = Net.dense (V c main_arg0) (V c main_arg2) b :=
  (dat0 V c).arrAt_eq_of_cover 3 _ (fun t _ => flushed_eq V c t b hb) cover

end Cert.KernelIdeal.R0

end
-- ==== Proof.R1.lean ====
/-
  Region 1 (a combine layer) as one array: whatever the buffers hold when the region is entered, its output array
  ends holding the combine layer of the five input arrays — the neighbour means, the node array, the two weight
  matrices, and the bias whose 1 × 128 reshape the fourth window stages.

  Point t of the 20-point grid loads rows 5000·t … 5000·t + 4999 of the two node arrays, the whole weight matrices and
  the whole bias row, and writes back the same rows of the output; so entry (p, q) of the block it writes is the layer's
  entry (5000·t + p, q), and the twenty blocks tile the 100000 rows.
-/
import proofs.«139575_j19731079758358_1_alg».proof.Proof.GenP.KernelIdeal.Frame
import proofs.«139575_j19731079758358_1_alg».proof.Proof.Point

set_option maxRecDepth 16384

noncomputable section

namespace Cert.KernelIdeal.R1

open Cert.KernelIdeal Cert.KernelIdeal.Gen Cert.KernelIdeal.GenP Idealize.ShloMosaic Idealize.ShloMosaic.TcCoe Idealize.SL.Sem
open Idealize.ShloMosaic.Pipeline (Dat)
open Cert.ReferenceIdeal.Read (lidx_main_v5 ridx_main_v5 idx_main_v4 idx_main_v6 idx_main_v7)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the two node blocks and the output block move together down the rows, and
    the weight matrices and the bias row are always their one block. -/
theorem maps : ∀ t : Fin cfg1.N, win1_0.index t (0 : Fin 2) = win1_5.index t (0 : Fin 2)
    ∧ win1_0.index t (1 : Fin 2) = 0 ∧ win1_5.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 19 :=
  (by decide +kernel : ∀ t : Fin grid1.N, _)

/-- Every block of rows is some point's. -/
theorem onto : ∀ q : Fin 20, ∃ t : Fin cfg1.N, win1_5.index t = ![q.val, 0] :=
  (by decide +kernel : ∀ q : Fin 20, ∃ t : Fin grid1.N, win1_5.index t = ![q.val, 0])

/-- What point `t` writes back is block `t` of the combine layer of the arrays the region finds. -/
theorem flushed_eq (c : Dev nD) (t : Fin cfg1.N) (b : Net.Bias Ideal)
    (hb : ∀ y : S1x128.Idx, V c main_v25 y = b (idx_main_v6 y)) :
    (dat1 V c).flushed 5 t
      = ((cfg1.win 5).blk t).view.read (Elt Ideal) (Net.combine (V c main_v24) (V c main_v5) (V c main_arg6) b (V c main_arg8)) := by
  show (cfg1.win 5).cut (grid1.coords t) ((dat1 V c).after 5 t) = _
  rw [after1_5]
  unfold out1_5
  rw [View.canon_unit_zero origin]
  simp only [View.ld_unit_zero (S := S5000x128) origin, View.ld_unit_zero (S := S128x128) origin, View.ld_unit_zero (S := S1x128) origin]
  obtain ⟨e0, e1, e2, e3, e4, e5, e6, e7, e8, e9, e10, e11⟩ := maps t
  funext y
  refine Point.combine1 (iblk1 V c 0 t) (iblk1 V c 1 t) (iblk1 V c 2 t) (iblk1 V c 4 t) (iblk1 V c 3 t)
    (V c main_v24) (V c main_v5) (V c main_arg6) b (V c main_arg8) y (((cfg1.win 5).blk t).view.emb y) ?_ ?_ ?_ ?_ ?_
  · intro k
    show V c main_v24 (((cfg1.win 0).blk t).view.emb (Body.rowAt y k)) = V c main_v24 (lidx_main_v5 (((cfg1.win 5).blk t).view.emb y) k)
    refine congrArg _ (funext fun a => Fin.ext ?_)
    match a with
    | ⟨0, _⟩ => show win1_0.index t (0 : Fin 2) * 5000 + 1 * (y 0).val = win1_5.index t (0 : Fin 2) * 5000 + 1 * (y 0).val; omega
    | ⟨1, _⟩ => show win1_0.index t (1 : Fin 2) * 128 + 1 * k.val = k.val; omega
  · intro k
    show V c main_v5 (((cfg1.win 1).blk t).view.emb (Body.rowAt y k)) = V c main_v5 (lidx_main_v5 (((cfg1.win 5).blk t).view.emb y) k)
    refine congrArg _ (funext fun a => Fin.ext ?_)
    match a with
    | ⟨0, _⟩ => show win1_1.index t (0 : Fin 2) * 5000 + 1 * (y 0).val = win1_5.index t (0 : Fin 2) * 5000 + 1 * (y 0).val; omega
    | ⟨1, _⟩ => show win1_1.index t (1 : Fin 2) * 128 + 1 * k.val = k.val; omega
  · intro k
    show V c main_arg6 (((cfg1.win 2).blk t).view.emb (Body.wAt y k)) = V c main_arg6 (idx_main_v4 (ridx_main_v5 (((cfg1.win 5).blk t).view.emb y) k))
    refine congrArg _ (funext fun a => Fin.ext ?_)
    match a with
    | ⟨0, _⟩ => show win1_2.index t (0 : Fin 2) * 128 + 1 * (y 1).val = win1_5.index t (1 : Fin 2) * 128 + 1 * (y 1).val; omega
    | ⟨1, _⟩ => show win1_2.index t (1 : Fin 2) * 128 + 1 * k.val = k.val; omega
  · show V c main_v25 (((cfg1.win 3).blk t).view.emb (Body.bAt y)) = b (idx_main_v6 (idx_main_v7 (((cfg1.win 5).blk t).view.emb y)))
    rw [hb]
    refine congrArg _ (funext fun a => Fin.ext ?_)
    match a with
    | ⟨0, _⟩ => show win1_3.index t (1 : Fin 2) * 128 + 1 * (y 1).val = win1_5.index t (1 : Fin 2) * 128 + 1 * (y 1).val; omega
  · intro k
    show V c main_arg8 (((cfg1.win 4).blk t).view.emb (Body.wAt y k)) = V c main_arg8 (idx_main_v4 (ridx_main_v5 (((cfg1.win 5).blk t).view.emb y) k))
    refine congrArg _ (funext fun a => Fin.ext ?_)
    match a with
    | ⟨0, _⟩ => show win1_4.index t (0 : Fin 2) * 128 + 1 * (y 1).val = win1_5.index t (1 : Fin 2) * 128 + 1 * (y 1).val; omega
    | ⟨1, _⟩ => show win1_4.index t (1 : Fin 2) * 128 + 1 * k.val = k.val; omega

/-- An index of the output array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v26).slice (win1_5.rect t)).set ↔ _
  rw [View.set_slice_whole, Rect.mem_set_unit]
  exact Iff.rfl

/-- Row `r` of the output lies in the block of point `r / 5000`. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The region's output array after its last point: the combine layer of what the region found in its input arrays. -/
theorem final (c : Dev nD) (b : Net.Bias Ideal) (hb : ∀ y : S1x128.Idx, V c main_v25 y = b (idx_main_v6 y)) :
    (dat1 V c).arrAt 5 cfg1.N = Net.combine (V c main_v24) (V c main_v5) (V c main_arg6) b (V c main_arg8) :=
  (dat1 V c).arrAt_eq_of_cover 5 _ (fun t _ => flushed_eq V c t b hb) cover

end Cert.KernelIdeal.R1

end
-- ==== Proof.R2.lean ====
/-
  Region 2 (a dense layer) as one array: whatever the buffers hold when the region is entered, its output array ends
  holding the dense layer of the three input arrays — the node array, the weight matrix, and the bias whose 1 × 128
  reshape the third window stages.

  Point t of the 20-point grid loads rows 5000·t … 5000·t + 4999 of the node array, the whole weight matrix and the whole
  bias row, and writes back the same rows of the output; so entry (p, q) of the block it writes is the layer's entry
  (5000·t + p, q), and the twenty blocks tile the 100000 rows.
-/
import proofs.«139575_j19731079758358_1_alg».proof.Proof.GenP.KernelIdeal.Frame
import proofs.«139575_j19731079758358_1_alg».proof.Proof.Point

set_option maxRecDepth 16384

noncomputable section

namespace Cert.KernelIdeal.R2

open Cert.KernelIdeal Cert.KernelIdeal.Gen Cert.KernelIdeal.GenP Idealize.ShloMosaic Idealize.ShloMosaic.TcCoe Idealize.SL.Sem
open Idealize.ShloMosaic.Pipeline (Dat)
open Cert.ReferenceIdeal.Read (lidx_main_v5 ridx_main_v5 idx_main_v4 idx_main_v6 idx_main_v7)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the node block and the output block move together down the rows, and the
    weight matrix and the bias row are always their one block. -/
theorem maps : ∀ t : Fin cfg2.N, win2_0.index t (0 : Fin 2) = win2_3.index t (0 : Fin 2)
    ∧ win2_0.index t (1 : Fin 2) = 0 ∧ win2_3.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 19 :=
  (by decide +kernel : ∀ t : Fin grid2.N, _)

/-- Every block of rows is some point's. -/
theorem onto : ∀ q : Fin 20, ∃ t : Fin cfg2.N, win2_3.index t = ![q.val, 0] :=
  (by decide +kernel : ∀ q : Fin 20, ∃ t : Fin grid2.N, win2_3.index t = ![q.val, 0])

/-- What point `t` writes back is block `t` of the dense layer of the arrays the region finds. -/
theorem flushed_eq (c : Dev nD) (t : Fin cfg2.N) (b : Net.Bias Ideal)
    (hb : ∀ y : S1x128.Idx, V c main_v27 y = b (idx_main_v6 y)) :
    (dat2 V c).flushed 3 t
      = ((cfg2.win 3).blk t).view.read (Elt Ideal) (Net.dense (V c main_v26) (V c main_arg4) b) := by
  show (cfg2.win 3).cut (grid2.coords t) ((dat2 V c).after 3 t) = _
  rw [after2_3]
  unfold out2_3
  rw [View.canon_unit_zero origin]
  simp only [View.ld_unit_zero (S := S5000x128) origin, View.ld_unit_zero (S := S128x128) origin, View.ld_unit_zero (S := S1x128) origin]
  obtain ⟨e0, e1, e2, e3, e4, e5, e6, e7⟩ := maps t
  funext y
  refine Point.dense2 (iblk2 V c 0 t) (iblk2 V c 1 t) (iblk2 V c 2 t) (V c main_v26) (V c main_arg4) b y
    (((cfg2.win 3).blk t).view.emb y) ?_ ?_ ?_
  · intro k
    show V c main_v26 (((cfg2.win 0).blk t).view.emb (Body.rowAt y k)) = V c main_v26 (lidx_main_v5 (((cfg2.win 3).blk t).view.emb y) k)
    refine congrArg _ (funext fun a => Fin.ext ?_)
    match a with
    | ⟨0, _⟩ => show win2_0.index t (0 : Fin 2) * 5000 + 1 * (y 0).val = win2_3.index t (0 : Fin 2) * 5000 + 1 * (y 0).val; omega
    | ⟨1, _⟩ => show win2_0.index t (1 : Fin 2) * 128 + 1 * k.val = k.val; omega
  · intro k
    show V c main_arg4 (((cfg2.win 1).blk t).view.emb (Body.wAt y k)) = V c main_arg4 (idx_main_v4 (ridx_main_v5 (((cfg2.win 3).blk t).view.emb y) k))
    refine congrArg _ (funext fun a => Fin.ext ?_)
    match a with
    | ⟨0, _⟩ => show win2_1.index t (0 : Fin 2) * 128 + 1 * (y 1).val = win2_3.index t (1 : Fin 2) * 128 + 1 * (y 1).val; omega
    | ⟨1, _⟩ => show win2_1.index t (1 : Fin 2) * 128 + 1 * k.val = k.val; omega
  · show V c main_v27 (((cfg2.win 2).blk t).view.emb (Body.bAt y)) = b (idx_main_v6 (idx_main_v7 (((cfg2.win 3).blk t).view.emb y)))
    rw [hb]
    refine congrArg _ (funext fun a => Fin.ext ?_)
    match a with
    | ⟨0, _⟩ => show win2_2.index t (1 : Fin 2) * 128 + 1 * (y 1).val = win2_3.index t (1 : Fin 2) * 128 + 1 * (y 1).val; omega

/-- An index of the output array is in point `t`'s block iff each coordinate is in the block's range on its axis. -/
theorem mem_blk (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v28).slice (win2_3.rect t)).set ↔ _
  rw [View.set_slice_whole, Rect.mem_set_unit]
  exact Iff.rfl

/-- Row `r` of the output lies in the block of point `r / 5000`. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The region's output array after its last point: the dense layer of what the region found in its input arrays. -/
theorem final (c : Dev nD) (b : Net.Bias Ideal) (hb : ∀ y : S1x128.Idx, V c main_v27 y = b (idx_main_v6 y)) :
    (dat2 V c).arrAt 3 cfg2.N = Net.dense (V c main_v26) (V c main_arg4) b :=
  (dat2 V c).arrAt_eq_of_cover 3 _ (fun t _ => flushed_eq V c t b hb) cover

end Cert.KernelIdeal.R2

end
-- ==== Proof.R3.lean ====
/-
  Region 3 (a combine layer) as one array: whatever the buffers hold when the region is entered, its output array
  ends holding the combine layer of the five input arrays — the neighbour means, the node array, the two weight
  matrices, and the bias whose 1 × 128 reshape the fourth window stages.

  Point t of the 20-point grid loads rows 5000·t … 5000·t + 4999 of the two node arrays, the whole weight matrices and
  the whole bias row, and writes back the same rows of the output; so entry (p, q) of the block it writes is the layer's
  entry (5000·t + p, q), and the twenty blocks tile the 100000 rows.
-/
import proofs.«139575_j19731079758358_1_alg».proof.Proof.GenP.KernelIdeal.Frame
import proofs.«139575_j19731079758358_1_alg».proof.Proof.Point

set_option maxRecDepth 16384

noncomputable section

namespace Cert.KernelIdeal.R3

open Cert.KernelIdeal Cert.KernelIdeal.Gen Cert.KernelIdeal.GenP Idealize.ShloMosaic Idealize.ShloMosaic.TcCoe Idealize.SL.Sem
open Idealize.ShloMosaic.Pipeline (Dat)
open Cert.ReferenceIdeal.Read (lidx_main_v5 ridx_main_v5 idx_main_v4 idx_main_v6 idx_main_v7)

variable (V : (c : Dev nD) → (b : Ref sig .tc) → Buf (Elt Ideal) ((c : Thread nD τ).loc b))

theorem origin : (![0, 0] : Fin 2 → Nat) = fun _ => 0 := funext fun a => by fin_cases a <;> rfl

/-- The printed index maps over the grid: the two node blocks and the output block move together down the rows, and
    the weight matrices and the bias row are always their one block. -/
theorem maps : ∀ t : Fin cfg3.N, win3_0.index t (0 : Fin 2) = win3_5.index t (0 : Fin 2)
    ∧ win3_0.index t (1 : Fin 2) = 0 ∧ win3_5.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) ≤ 19 :=
  (by decide +kernel : ∀ t : Fin grid3.N, _)

/-- Every block of rows is some point's. -/
theorem onto : ∀ q : Fin 20, ∃ t : Fin cfg3.N, win3_5.index t = ![q.val, 0] :=
  (by decide +kernel : ∀ q : Fin 20, ∃ t : Fin grid3.N, win3_5.index t = ![q.val, 0])

/-- What point `t` writes back is block `t` of the combine layer of the arrays the region finds. -/
theorem flushed_eq (c : Dev nD) (t : Fin cfg3.N) (b : Net.Bias Ideal)
    (hb : ∀ y : S1x128.Idx, V c main_v48 y = b (idx_main_v6 y)) :
    (dat3 V c).flushed 5 t
      = ((cfg3.win 5).blk t).view.read (Elt Ideal) (Net.combine (V c main_v47) (V c main_v28) (V c main_arg9) b (V c main_arg11)) := by
  show (cfg3.win 5).cut (grid3.coords t) ((dat3 V c).after 5 t) = _
  rw [after3_5]
  unfold out3_5
  rw [View.canon_unit_zero origin]
  simp only [View.ld_unit_zero (S := S5000x128) origin, View.ld_unit_zero (S := S128x128) origin, View.ld_unit_zero (S := S1x128) origin]
  obtain ⟨e0, e1, e2, e3, e4, e5, e6, e7, e8, e9, e10, e11⟩ := maps t
  funext y
  refine Point.combine3 (iblk3 V c 0 t) (iblk3 V c 1 t) (iblk3 V c 2 t) (iblk3 V c 4 t) (iblk3 V c 3 t)
    (V c main_v47) (V c main_v28) (V c main_arg9) b (V c main_arg11) y (((cfg3.win 5).blk t).view.emb y) ?_ ?_ ?_ ?_ ?_
  · intro k
    show V c main_v47 (((cfg3.win 0).blk t).view.emb (Body.rowAt y k)) = V c main_v47 (lidx_main_v5 (((cfg3.win 5).blk t).view.emb y) k)
    refine congrArg _ (funext fun a => Fin.ext ?_)
    match a with
    | ⟨0, _⟩ => show win3_0.index t (0 : Fin 2) * 5000 + 1 * (y 0).val = win3_5.index t (0 : Fin 2) * 5000 + 1 * (y 0).val; omega
    | ⟨1, _⟩ => show win3_0.index t (1 : Fin 2) * 128 + 1 * k.val = k.val; omega
  · intro k
    show V c main_v28 (((cfg3.win 1).blk t).view.emb (Body.rowAt y k)) = V c main_v28 (lidx_main_v5 (((cfg3.win 5).blk t).view.emb y) k)
    refine congrArg _ (funext fun a => Fin.ext ?_)
    match a with
    | ⟨0, _⟩ => show win3_1.index t (0 : Fin 2) * 5000 + 1 * (y 0).val = win3_5.index t (0 : Fin 2) * 5000 + 1 * (y 0).val; omega
    | ⟨1, _⟩ => show win3_1.index t (1 : Fin 2) * 128 + 1 * k.val = k.val; omega
  · intro k
    show V c main_arg9 (((cfg3.win 2).blk t).view.emb (Body.wAt y k)) = V c main_arg9 (idx_main_v4 (ridx_main_v5 (((cfg3.win 5).blk t).view.emb y) k))
    refine congrArg _ (funext fun a => Fin.ext ?_)
    match a with
    | ⟨0, _⟩ => show win3_2.index t (0 : Fin 2) * 128 + 1 * (y 1).val = win3_5.index t (1 : Fin 2) * 128 + 1 * (y 1).val; omega
    | ⟨1, _⟩ => show win3_2.index t (1 : Fin 2) * 128 + 1 * k.val = k.val; omega
  · show V c main_v48 (((cfg3.win 3).blk t).view.emb (Body.bAt y)) = b (idx_main_v6 (idx_main_v7 (((cfg3.win 5).blk t).view.emb y)))
    rw [hb]
    refine congrArg _ (funext fun a => Fin.ext ?_)
    match a with
    | ⟨0, _⟩ => show win3_3.index t (1 : Fin 2) * 128 + 1 * (y 1).val = win3_5.index t (1 : Fin 2) * 128 + 1 * (y 1).val; omega
  · intro k
    show V c main_arg11 (((cfg3.win 4).blk t).view.emb (Body.wAt y k)) = V c main_arg11 (idx_main_v4 (ridx_main_v5 (((cfg3.win 5).blk t).view.emb y) k))
    refine congrArg _ (funext fun a => Fin.ext ?_)
    match a with
    | ⟨0, _⟩ => show win3_4.index t (0 : Fin 2) * 128 + 1 * (y 1).val = win3_5.index t (1 : Fin 2) * 128 + 1 * (y 1).val; omega
    | ⟨1, _⟩ => show win3_4.index t (1 : Fin 2) * 128 + 1 * k.val = k.val; omega

/-- An index of the output array is in point `t`'s block iff each coordinate is in the block's range on its axis. -/
theorem mem_blk (t : Fin cfg3.N) (i : S100000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v49).slice (win3_5.rect t)).set ↔ _
  rw [View.set_slice_whole, Rect.mem_set_unit]
  exact Iff.rfl

/-- Row `r` of the output lies in the block of point `r / 5000`. -/
theorem cover (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  obtain ⟨t, ht⟩ := onto ⟨(i 0).val / 5000, by omega⟩
  have q0 : win3_5.index t (0 : Fin 2) = (i 0).val / 5000 := congrFun ht 0
  have q1 : win3_5.index t (1 : Fin 2) = 0 := congrFun ht 1
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- The region's output array after its last point: the combine layer of what the region found in its input arrays. -/
theorem final (c : Dev nD) (b : Net.Bias Ideal) (hb : ∀ y : S1x128.Idx, V c main_v48 y = b (idx_main_v6 y)) :
    (dat3 V c).arrAt 5 cfg3.N = Net.combine (V c main_v47) (V c main_v28) (V c main_arg9) b (V c main_arg11) :=
  (dat3 V c).arrAt_eq_of_cover 5 _ (fun t _ => flushed_eq V c t b hb) cover

end Cert.KernelIdeal.R3

end
-- ==== Proof.Fold.lean ====
/-
  The buffers at each boundary of the idealized kernel's @main, read back to the launch memory.

  @main alternates stretches of host operations with the four regions. The first stretch cuts the edge list into its
  source row and its destination row and reshapes the first bias; no later segment writes those two rows or any
  argument, so they reach every later boundary unchanged. Region 0 leaves the first dense layer h1 of the arguments.
  The second stretch computes the neighbour mean of h1 and reshapes a bias, and region 1 combines: h2. The third stretch
  reshapes a bias and region 2 leaves the dense layer h3 of h2. The last stretch computes the neighbour mean of h3, and
  region 3 combines: the network of the arguments.
-/
import proofs.«139575_j19731079758358_1_alg».proof.Proof.GenP.KernelIdeal.Frame
import proofs.«139575_j19731079758358_1_alg».proof.Proof.R0
import proofs.«139575_j19731079758358_1_alg».proof.Proof.R1
import proofs.«139575_j19731079758358_1_alg».proof.Proof.R2
import proofs.«139575_j19731079758358_1_alg».proof.Proof.R3

set_option maxRecDepth 16384

noncomputable section

namespace Cert.KernelIdeal.Fold

open Cert.KernelIdeal Cert.KernelIdeal.Gen Cert.KernelIdeal.GenP Idealize.ShloMosaic Idealize.ShloMosaic.TcCoe Idealize.SL.Sem
open Idealize.ShloMosaic.StableHlo
open Cert.ReferenceIdeal.Read (idx_main_v6)

variable (m : (ℓ : Loc nD τ sig) → Buf (Elt Ideal) ℓ) (ρ : Dev nD → PrngReg)

/-- A bias reshaped to one row, read at an index: the bias at the index's column. -/
theorem reshape_bias (b : Net.Bias Ideal) (y : S1x128.Idx) :
    shapeCast S1x128 b shapeCasts_S128_S1x128 y = b (idx_main_v6 y) :=
  shapeCast_apply b shapeCasts_S128_S1x128 y (idx_main_v6 y)
    (by rewrite [Shape.rowMajor_val_one, Shape.rowMajor_val_two]; have h0 : (y 0).val < 1 := (y 0).isLt; show (y 1).val = (y 0).val * 128 + (y 1).val; omega)

/-- The first dense layer of the arguments. -/
abbrev h1 (c : Dev nD) : Net.Act Ideal := Net.dense (m ((c : Thread nD τ).loc main_arg0)) (m ((c : Thread nD τ).loc main_arg2)) (m ((c : Thread nD τ).loc main_arg3))
/-- The first combine layer. -/
abbrev h2 (c : Dev nD) : Net.Act Ideal :=
  Net.combine (Net.meanAgg (h1 m c) (m ((c : Thread nD τ).loc main_arg1))) (h1 m c) (m ((c : Thread nD τ).loc main_arg6)) (m ((c : Thread nD τ).loc main_arg7)) (m ((c : Thread nD τ).loc main_arg8))
/-- The second dense layer. -/
abbrev h3 (c : Dev nD) : Net.Act Ideal := Net.dense (h2 m c) (m ((c : Thread nD τ).loc main_arg4)) (m ((c : Thread nD τ).loc main_arg5))

/-! ## What no later segment writes: the two rows of the edge list and the arguments -/

/-- The buffers that only the first stretch may write. -/
def carried : List (Ref sig .tc) := [main_v1, main_v3, main_arg4, main_arg5, main_arg6, main_arg7, main_arg8, main_arg9, main_arg10, main_arg11]

theorem pass2 (c : Dev nD) (b : Ref sig .tc) (hb : b ∈ carried) : W2 m ρ c (Proc.devRef .tc b) = W1 m ρ c (Proc.devRef .tc b) :=
  W2_of_ne m ρ c b ((by decide : ∀ b ∈ carried, ∀ w, Pipeline.arrRef spec0 w ≠ b) b hb)
/-- Region 1 stages two of the carried arguments (its weight matrices) through input windows, which write nothing back;
    the others are none of its arrays. -/
theorem pass4 (c : Dev nD) (b : Ref sig .tc) (hb : b ∈ carried) : W4 m ρ c (Proc.devRef .tc b) = W3 m ρ c (Proc.devRef .tc b) := by
  simp only [carried, List.mem_cons, List.not_mem_nil, or_false] at hb
  rcases hb with rfl | rfl | rfl | rfl | rfl | rfl | rfl | rfl | rfl | rfl <;>
    first
      | exact W4_of_ne m ρ c _ (by decide)
      | exact (W4_arr m ρ c 2).trans (((dat1 (V3 m ρ) c).arrAt_in 2 rfl _).trans (A_eq1 (V3 m ρ) c 2))
      | exact (W4_arr m ρ c 4).trans (((dat1 (V3 m ρ) c).arrAt_in 4 rfl _).trans (A_eq1 (V3 m ρ) c 4))
/-- Region 2 stages one carried argument (its weight matrix) through an input window. -/
theorem pass6 (c : Dev nD) (b : Ref sig .tc) (hb : b ∈ carried) : W6 m ρ c (Proc.devRef .tc b) = W5 m ρ c (Proc.devRef .tc b) := by
  simp only [carried, List.mem_cons, List.not_mem_nil, or_false] at hb
  rcases hb with rfl | rfl | rfl | rfl | rfl | rfl | rfl | rfl | rfl | rfl <;>
    first
      | exact W6_of_ne m ρ c _ (by decide)
      | exact (W6_arr m ρ c 1).trans (((dat2 (V5 m ρ) c).arrAt_in 1 rfl _).trans (A_eq2 (V5 m ρ) c 1))

set_option maxHeartbeats 8000000 in
theorem pass3 (c : Dev nD) (b : Ref sig .tc) (hb : b ∈ carried) : W3 m ρ c (Proc.devRef .tc b) = W2 m ρ c (Proc.devRef .tc b) := by
  simp only [carried, List.mem_cons, List.not_mem_nil, or_false] at hb
  rcases hb with rfl | rfl | rfl | rfl | rfl | rfl | rfl | rfl | rfl | rfl <;>
    (show StableHlo.after hostOps1 (W2 m ρ c) _ = _; after_results_simp)
theorem pass5 (c : Dev nD) (b : Ref sig .tc) (hb : b ∈ carried) : W5 m ρ c (Proc.devRef .tc b) = W4 m ρ c (Proc.devRef .tc b) := by
  simp only [carried, List.mem_cons, List.not_mem_nil, or_false] at hb
  rcases hb with rfl | rfl | rfl | rfl | rfl | rfl | rfl | rfl | rfl | rfl <;>
    (show StableHlo.after hostOps2 (W4 m ρ c) _ = _; after_results)

/-- Up to the last stretch, a carried buffer holds what the first stretch left in it. -/
theorem at2 (c : Dev nD) (b : Ref sig .tc) (hb : b ∈ carried) : W2 m ρ c (Proc.devRef .tc b) = W1 m ρ c (Proc.devRef .tc b) := pass2 m ρ c b hb
theorem at4 (c : Dev nD) (b : Ref sig .tc) (hb : b ∈ carried) : W4 m ρ c (Proc.devRef .tc b) = W1 m ρ c (Proc.devRef .tc b) :=
  (pass4 m ρ c b hb).trans ((pass3 m ρ c b hb).trans (pass2 m ρ c b hb))
theorem at6 (c : Dev nD) (b : Ref sig .tc) (hb : b ∈ carried) : W6 m ρ c (Proc.devRef .tc b) = W1 m ρ c (Proc.devRef .tc b) :=
  (pass6 m ρ c b hb).trans ((pass5 m ρ c b hb).trans (at4 m ρ c b hb))

/-! ## The first stretch -/

theorem W1_v1 (c : Dev nD) : W1 m ρ c (Proc.devRef .tc main_v1) = Net.srcOf (m ((c : Thread nD τ).loc main_arg1)) := by
  show StableHlo.after hostOps0 (W0 m ρ c) (Proc.devRef .tc main_v1) = _
  after_results
  rfl
theorem W1_v3 (c : Dev nD) : W1 m ρ c (Proc.devRef .tc main_v3) = Net.dstOf (m ((c : Thread nD τ).loc main_arg1)) := by
  show StableHlo.after hostOps0 (W0 m ρ c) (Proc.devRef .tc main_v3) = _
  after_results
  rfl
theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W1_arg5 (c : Dev nD) : W1 m ρ c (Proc.devRef .tc main_arg5) = m ((c : Thread nD τ).loc main_arg5) := by
  show StableHlo.after hostOps0 (W0 m ρ c) (Proc.devRef .tc main_arg5) = _
  after_results
theorem W1_arg6 (c : Dev nD) : W1 m ρ c (Proc.devRef .tc main_arg6) = m ((c : Thread nD τ).loc main_arg6) := by
  show StableHlo.after hostOps0 (W0 m ρ c) (Proc.devRef .tc main_arg6) = _
  after_results
theorem W1_arg7 (c : Dev nD) : W1 m ρ c (Proc.devRef .tc main_arg7) = m ((c : Thread nD τ).loc main_arg7) := by
  show StableHlo.after hostOps0 (W0 m ρ c) (Proc.devRef .tc main_arg7) = _
  after_results
theorem W1_arg8 (c : Dev nD) : W1 m ρ c (Proc.devRef .tc main_arg8) = m ((c : Thread nD τ).loc main_arg8) := by
  show StableHlo.after hostOps0 (W0 m ρ c) (Proc.devRef .tc main_arg8) = _
  after_results
theorem W1_arg9 (c : Dev nD) : W1 m ρ c (Proc.devRef .tc main_arg9) = m ((c : Thread nD τ).loc main_arg9) := by
  show StableHlo.after hostOps0 (W0 m ρ c) (Proc.devRef .tc main_arg9) = _
  after_results
theorem W1_arg10 (c : Dev nD) : W1 m ρ c (Proc.devRef .tc main_arg10) = m ((c : Thread nD τ).loc main_arg10) := by
  show StableHlo.after hostOps0 (W0 m ρ c) (Proc.devRef .tc main_arg10) = _
  after_results
theorem W1_arg11 (c : Dev nD) : W1 m ρ c (Proc.devRef .tc main_arg11) = m ((c : Thread nD τ).loc main_arg11) := by
  show StableHlo.after hostOps0 (W0 m ρ c) (Proc.devRef .tc main_arg11) = _
  after_results
theorem V1_v4 (c : Dev nD) : V1 m ρ c main_v4 = shapeCast S1x128 (m ((c : Thread nD τ).loc main_arg3)) shapeCasts_S128_S1x128 := by
  show StableHlo.after hostOps0 (W0 m ρ c) (Proc.devRef .tc main_v4) = _
  after_results
  rfl

/-! ## Region 0, the second stretch, region 1 -/

/-- Region 0 leaves the first dense layer. -/
theorem W2_v5 (c : Dev nD) : W2 m ρ c (Proc.devRef .tc main_v5) = h1 m c := by
  refine (W2_arr m ρ c 3).trans ((R0.final (V1 m ρ) c (m ((c : Thread nD τ).loc main_arg3)) (fun y => ?_)).trans ?_)
  · rw [V1_v4]; exact reshape_bias _ y
  · show Net.dense (W1 m ρ c (Proc.devRef .tc main_arg0)) (W1 m ρ c (Proc.devRef .tc main_arg2)) _ = _
    rw [W1_arg0, W1_arg2]

set_option maxHeartbeats 8000000 in
/-- The second stretch computes the neighbour mean of the first dense layer. -/
theorem V3_v24 (c : Dev nD) : V3 m ρ c main_v24 = Net.meanAgg (h1 m c) (m ((c : Thread nD τ).loc main_arg1)) := by
  show StableHlo.after hostOps1 (W2 m ρ c) (Proc.devRef .tc main_v24) = _
  after_results_simp
  rw [W2_v5, at2 m ρ c main_v1 (by decide), at2 m ρ c main_v3 (by decide), W1_v1, W1_v3]
  rfl
set_option maxHeartbeats 8000000 in
theorem V3_v5 (c : Dev nD) : V3 m ρ c main_v5 = h1 m c := by
  show StableHlo.after hostOps1 (W2 m ρ c) (Proc.devRef .tc main_v5) = _
  after_results_simp
  exact W2_v5 m ρ c
set_option maxHeartbeats 8000000 in
theorem V3_v25 (c : Dev nD) : V3 m ρ c main_v25 = shapeCast S1x128 (m ((c : Thread nD τ).loc main_arg7)) shapeCasts_S128_S1x128 := by
  show StableHlo.after hostOps1 (W2 m ρ c) (Proc.devRef .tc main_v25) = _
  after_results_simp
  rw [at2 m ρ c main_arg7 (by decide), W1_arg7]
  rfl
theorem V3_arg6 (c : Dev nD) : V3 m ρ c main_arg6 = (m ((c : Thread nD τ).loc main_arg6)) :=
  (pass3 m ρ c main_arg6 (by decide)).trans ((at2 m ρ c main_arg6 (by decide)).trans (W1_arg6 m ρ c))
theorem V3_arg8 (c : Dev nD) : V3 m ρ c main_arg8 = (m ((c : Thread nD τ).loc main_arg8)) :=
  (pass3 m ρ c main_arg8 (by decide)).trans ((at2 m ρ c main_arg8 (by decide)).trans (W1_arg8 m ρ c))

/-- Region 1 leaves the first combine layer. -/
theorem W4_v26 (c : Dev nD) : W4 m ρ c (Proc.devRef .tc main_v26) = h2 m c := by
  refine (W4_arr m ρ c 5).trans ((R1.final (V3 m ρ) c (m ((c : Thread nD τ).loc main_arg7)) (fun y => ?_)).trans ?_)
  · rw [V3_v25]; exact reshape_bias _ y
  · rw [V3_v24, V3_v5, V3_arg6, V3_arg8]

/-! ## The third stretch, region 2 -/

theorem V5_v26 (c : Dev nD) : V5 m ρ c main_v26 = h2 m c := by
  show StableHlo.after hostOps2 (W4 m ρ c) (Proc.devRef .tc main_v26) = _
  after_results
  exact W4_v26 m ρ c
theorem V5_v27 (c : Dev nD) : V5 m ρ c main_v27 = shapeCast S1x128 (m ((c : Thread nD τ).loc main_arg5)) shapeCasts_S128_S1x128 := by
  show StableHlo.after hostOps2 (W4 m ρ c) (Proc.devRef .tc main_v27) = _
  after_results
  rw [at4 m ρ c main_arg5 (by decide), W1_arg5]
  rfl
theorem V5_arg4 (c : Dev nD) : V5 m ρ c main_arg4 = (m ((c : Thread nD τ).loc main_arg4)) :=
  (pass5 m ρ c main_arg4 (by decide)).trans ((at4 m ρ c main_arg4 (by decide)).trans (W1_arg4 m ρ c))

/-- Region 2 leaves the second dense layer. -/
theorem W6_v28 (c : Dev nD) : W6 m ρ c (Proc.devRef .tc main_v28) = h3 m c := by
  refine (W6_arr m ρ c 3).trans ((R2.final (V5 m ρ) c (m ((c : Thread nD τ).loc main_arg5)) (fun y => ?_)).trans ?_)
  · rw [V5_v27]; exact reshape_bias _ y
  · rw [V5_v26, V5_arg4]

/-! ## The last stretch, region 3 -/

set_option maxHeartbeats 8000000 in
/-- The last stretch computes the neighbour mean of the second dense layer. -/
theorem V7_v47 (c : Dev nD) : V7 m ρ c main_v47 = Net.meanAgg (h3 m c) (m ((c : Thread nD τ).loc main_arg1)) := by
  show StableHlo.after hostOps3 (W6 m ρ c) (Proc.devRef .tc main_v47) = _
  after_results_simp
  rw [W6_v28, at6 m ρ c main_v1 (by decide), at6 m ρ c main_v3 (by decide), W1_v1, W1_v3]
  rfl
set_option maxHeartbeats 8000000 in
theorem V7_v28 (c : Dev nD) : V7 m ρ c main_v28 = h3 m c := by
  show StableHlo.after hostOps3 (W6 m ρ c) (Proc.devRef .tc main_v28) = _
  after_results_simp
  exact W6_v28 m ρ c
set_option maxHeartbeats 8000000 in
theorem V7_v48 (c : Dev nD) : V7 m ρ c main_v48 = shapeCast S1x128 (m ((c : Thread nD τ).loc main_arg10)) shapeCasts_S128_S1x128 := by
  show StableHlo.after hostOps3 (W6 m ρ c) (Proc.devRef .tc main_v48) = _
  after_results_simp
  rw [at6 m ρ c main_arg10 (by decide), W1_arg10]
  rfl
set_option maxHeartbeats 8000000 in
theorem V7_arg9 (c : Dev nD) : V7 m ρ c main_arg9 = (m ((c : Thread nD τ).loc main_arg9)) := by
  show StableHlo.after hostOps3 (W6 m ρ c) (Proc.devRef .tc main_arg9) = _
  after_results_simp
  exact (at6 m ρ c main_arg9 (by decide)).trans (W1_arg9 m ρ c)
set_option maxHeartbeats 8000000 in
theorem V7_arg11 (c : Dev nD) : V7 m ρ c main_arg11 = (m ((c : Thread nD τ).loc main_arg11)) := by
  show StableHlo.after hostOps3 (W6 m ρ c) (Proc.devRef .tc main_arg11) = _
  after_results_simp
  exact (at6 m ρ c main_arg11 (by decide)).trans (W1_arg11 m ρ c)

/-- Region 3 leaves the network of the arguments in the result's buffer. -/
theorem W8_v49 (c : Dev nD) : W8 m ρ c (Proc.devRef .tc main_v49)
    = Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W8_arr m ρ c 5).trans ((R3.final (V7 m ρ) c (m ((c : Thread nD τ).loc main_arg10)) (fun y => ?_)).trans ?_)
  · rw [V7_v48]; exact reshape_bias _ y
  · rw [V7_v47, V7_v28, V7_arg9, V7_arg11]
    rfl

end Cert.KernelIdeal.Fold

end
-- ==== Proof.lean ====
/-
  Two stacked graph-convolution stages over 100000 nodes with 128 features and 1600000 edges:
      h1 = relu (x · W1ᵀ + b1)
      h2 = relu ((mean₁ · Wl1ᵀ + bl1) + h1 · Wr1ᵀ)        mean₁ = the mean of h1 over each node's incoming edges
      h3 = relu (h2 · W2ᵀ + b2)
      out = relu ((mean₃ · Wl2ᵀ + bl2) + h3 · Wr2ᵀ)        mean₃ = the same mean of h3
  The kernel computes each of the four layers in a TensorCore region, twenty blocks of 5000 rows each, with the products
  taken in bfloat16 — the identity at the ideal values — and computes the two means on the host between the regions; the
  reference computes everything on the host, with the same operations in the same grouping. At the ideal values a
  matrix product is the plain sum over the contracted axis on both sides, so both programs return the one function
  `Net.net` of the arguments: no law of the extended reals is needed beyond reading each operation at an index, and the
  precondition is never opened.

  Net.lean states the network and shows the reference's result term is it; Body.lean and Point.lean read the four kernel
  bodies at an index; R0 … R3 turn each region's twenty written blocks into one whole-array statement; Fold.lean reads the
  buffers at every boundary of @main back to the launch memory; Named.lean is the kernel's run with its result named.
  The frames of the two kernels are the generated ones, the reference's frame is its generated run with the result
  dropped, and the idealization rewrote nothing.
-/
import proofs.«139575_j19731079758358_1_alg».proof.Defs
import proofs.«139575_j19731079758358_1_alg».proof.Proof.Gen.Kernel
import proofs.«139575_j19731079758358_1_alg».proof.Proof.GenP.Kernel.Frame
import proofs.«139575_j19731079758358_1_alg».proof.Proof.Gen.KernelIdeal
import proofs.«139575_j19731079758358_1_alg».proof.Proof.GenP.KernelIdeal.Frame
import proofs.«139575_j19731079758358_1_alg».proof.Proof.Gen.ReferenceIdeal
import proofs.«139575_j19731079758358_1_alg».proof.Proof.Gen.Pre_finite_inputs
import proofs.«139575_j19731079758358_1_alg».proof.Proof.Gen.ReferenceIdeal.Run
import proofs.«139575_j19731079758358_1_alg».proof.Proof.Gen.ReferenceIdeal.Read
import proofs.«139575_j19731079758358_1_alg».proof.Proof.Net
import proofs.«139575_j19731079758358_1_alg».proof.Proof.Named
import proofs.«139575_j19731079758358_1_alg».proof.Proof.Fold
import Idealize.ShloMosaic.Adequacy
import Idealize.ShloMosaic.Init

noncomputable section

namespace Cert.Proof

open Idealize.ShloMosaic Idealize.SL.Sem

theorem frame_kernel : Cert.frame_Kernel := fun m ρ _ => Cert.Kernel.GenP.frame m ρ
theorem frame_ideal : Cert.frame_KernelIdeal := fun m ρ _ => Cert.KernelIdeal.GenP.frame m ρ
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the network of their (agreeing) arguments in the result. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Fold.W8_v49 m ρ c), (h c).2⟩) (Cert.KernelIdeal.Named.run m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9, a10, a11⟩ := hagree c
    rw [(h c).1, Cert.Net.ref_eq, a0, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
